-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x200x128 : Shape := ⟨3, ![2048, 200, 128]⟩
abbrev S2048x200 : Shape := ⟨2, ![2048, 200]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x200x128 : S_.BroadcastsInDim S2048x200x128 (![] : Fin 0 → Fin S2048x200x128.rank)
  reducesTo_S2048x200x128_S_d0_1_2 : S2048x200x128.ReducesTo [0, 1, 2] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S64x32 .f32) (main_arg6 : FVec F S32 .f32) (main_arg7 : FVec F S32x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg7
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg8 main_v33

def fn {F : FTy → Type} [FloatOps F] (main_arg0 : FVec F S2048x128 .f32) (main_arg1 : FVec F S2048x200x128 .f32) (main_arg2 : IVec S2048x200 32) (main_arg3 : FVec F S512x64 .f32) (main_arg4 : FVec F S64 .f32) (main_arg5 : FVec F S64x32 .f32) (main_arg6 : FVec F S32 .f32) (main_arg7 : FVec F S32x1 .f32) (main_arg8 : FVec F S1 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x200x128 .f32 := Host.absf main_arg1
  let main_cst_0 : FVec F S_ .f32 := constant S_ .f32 0x7F800000#32
  let main_v5 : FVec F S2048x200x128 .f32 := broadcastInDim S2048x200x128 ![] bcast_S_S2048x200x128 main_cst_0
  let main_v6 : IVec S2048x200x128 1 := cmpf .olt main_v4 main_v5
  let main_c_1 : IVec S_ 1 := constantI S_ 1 1#1
  let main_v7 : IVec S_ 1 := (fun x v => Host.reduce IntOp.andi x v reducesTo_S2048x200x128_S_d0_1_2 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S2048x128 : Shape := ⟨2, ![2048, 128]⟩
abbrev S2048x200x128 : Shape := ⟨3, ![2048, 200, 128]⟩
abbrev S2048x200 : Shape := ⟨2, ![2048, 200]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S64x128 : Shape := ⟨2, ![64, 128]⟩
abbrev S64x200x128 : Shape := ⟨3, ![64, 200, 128]⟩
abbrev S64x200 : Shape := ⟨2, ![64, 200]⟩
abbrev S128x64 : Shape := ⟨2, ![128, 64]⟩
abbrev S64x64 : Shape := ⟨2, ![64, 64]⟩
abbrev S12800x128 : Shape := ⟨2, ![12800, 128]⟩
abbrev S12800x64 : Shape := ⟨2, ![12800, 64]⟩
abbrev S64x200x64 : Shape := ⟨3, ![64, 200, 64]⟩
abbrev S64x1x128 : Shape := ⟨3, ![64, 1, 128]⟩
abbrev S64x1x64 : Shape := ⟨3, ![64, 1, 64]⟩
abbrev S1x1x64 : Shape := ⟨3, ![1, 1, 64]⟩
abbrev S12800x32 : Shape := ⟨2, ![12800, 32]⟩
abbrev S1x32 : Shape := ⟨2, ![1, 32]⟩
abbrev S12800x1 : Shape := ⟨2, ![12800, 1]⟩
abbrev S1x1 : Shape := ⟨2, ![1, 1]⟩
abbrev S64x200x1 : Shape := ⟨3, ![64, 200, 1]⟩
abbrev S64x1 : Shape := ⟨2, ![64, 1]⟩
abbrev S64x1x1 : Shape := ⟨3, ![64, 1, 1]⟩

abbrev nBuf : Space → Nat
  | .hbm => 10
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x200x128, .f32⟩
  | .hbm, ⟨2, _⟩ => ⟨S2048x200, .i32⟩
  | .hbm, ⟨3, _⟩ => ⟨S512x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S2048x128, .f32⟩
  | .local _ .vmem, ⟨0, _⟩ => ⟨S64x128, .f32⟩
  | .local _ .vmem, ⟨1, _⟩ => ⟨S64x128, .f32⟩
  | .local _ .vmem, ⟨2, _⟩ => ⟨S64x200x128, .f32⟩
  | .local _ .vmem, ⟨3, _⟩ => ⟨S64x200x128, .f32⟩
  | .local _ .vmem, ⟨4, _⟩ => ⟨S64x200, .i32⟩
  | .local _ .vmem, ⟨5, _⟩ => ⟨S64x200, .i32⟩
  | .local _ .vmem, ⟨6, _⟩ => ⟨S512x64, .f32⟩
  | .local _ .vmem, ⟨7, _⟩ => ⟨S64, .f32⟩
  | .local _ .vmem, ⟨8, _⟩ => ⟨S64x32, .f32⟩
  | .local _ .vmem, ⟨9, _⟩ => ⟨S32, .f32⟩
  | .local _ .vmem, ⟨10, _⟩ => ⟨S32x1, .f32⟩
  | .local _ .vmem, ⟨11, _⟩ => ⟨S1, .f32⟩
  | .local _ .vmem, ⟨12, _⟩ => ⟨S64x128, .f32⟩
  | .local _ .vmem, ⟨13, _⟩ => ⟨S64x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S64x128_S64x128_0_0 : ∀ a, (![0, 0] : Fin 2 → Nat) a + S64x128.size a ≤ S64x128.size a
  h_S64x128 : 0 < S64x128.numel
  inb_S64x200x128_S64x200x128_0_0_0 : ∀ a, (![0, 0, 0] : Fin 3 → Nat) a + S64x200x128.size a ≤ S64x200x128.size a
  h_S64x200x128 : 0 < S64x200x128.numel
  inb_S64x200_S64x200_0_0 : ∀ a, (![0, 0] : Fin 2 → Nat) a + S64x200.size a ≤ S64x200.size a
  h_S64x200 : 0 < S64x200.numel
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  slices_S512x64_o0_0_S128x64 : S512x64.Slices ![0, 0] S128x64
  slices_S512x64_o128_0_S128x64 : S512x64.Slices ![128, 0] S128x64
  slices_S512x64_o256_0_S128x64 : S512x64.Slices ![256, 0] S128x64
  slices_S512x64_o384_0_S128x64 : S512x64.Slices ![384, 0] S128x64
  shapeCasts_S64x200x128_S12800x128 : S64x200x128.ShapeCasts S12800x128
  shapeCasts_S12800x64_S64x200x64 : S12800x64.ShapeCasts S64x200x64
  shapeCasts_S64x128_S64x1x128 : S64x128.ShapeCasts S64x1x128
  broadcasts_S64x1x128_S64x200x128 : S64x1x128.Broadcasts S64x200x128
  shapeCasts_S64x64_S64x1x64 : S64x64.ShapeCasts S64x1x64
  broadcasts_S64x1x64_S64x200x64 : S64x1x64.Broadcasts S64x200x64
  shapeCasts_S64_S1x1x64 : S64.ShapeCasts S1x1x64
  broadcasts_S1x1x64_S64x200x64 : S1x1x64.Broadcasts S64x200x64
  shapeCasts_S64x200x64_S12800x64 : S64x200x64.ShapeCasts S12800x64
  shapeCasts_S32_S1x32 : S32.ShapeCasts S1x32
  broadcasts_S1x32_S12800x32 : S1x32.Broadcasts S12800x32
  shapeCasts_S1_S1x1 : S1.ShapeCasts S1x1
  broadcasts_S1x1_S12800x1 : S1x1.Broadcasts S12800x1
  shapeCasts_S12800x1_S64x200x1 : S12800x1.ShapeCasts S64x200x1
  shapeCasts_S64x200_S64x200x1 : S64x200.ShapeCasts S64x200x1
  reduces_S64x200x1_S64x1 : S64x200x1.Reduces [1] S64x1
  shapeCasts_S64x1_S64x1x1 : S64x1.ShapeCasts S64x1x1
  broadcasts_S64x1x1_S64x200x1 : S64x1x1.Broadcasts S64x200x1
  broadcasts_S64x200x1_S64x200x128 : S64x200x1.Broadcasts S64x200x128
  reduces_S64x200x128_S64x128 : S64x200x128.Reduces [1] S64x128
  dot_S64x128_S128x64_S64x64_1_0_0_1_n_n_wf : DotDims.WF S64x128 S128x64 S64x64 [1] [0] [0] [1] [] []
  dot_S12800x128_S128x64_S12800x64_1_0_0_1_n_n_wf : DotDims.WF S12800x128 S128x64 S12800x64 [1] [0] [0] [1] [] []
  dot_S12800x64_S64x32_S12800x32_1_0_0_1_n_n_wf : DotDims.WF S12800x64 S64x32 S12800x32 [1] [0] [0] [1] [] []
  dot_S12800x32_S32x1_S12800x1_1_0_0_1_n_n_wf : DotDims.WF S12800x32 S32x1 S12800x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S2048x128.size a
  hwx0_0 : ∀ i : grid0.Coords, EltTy.bits .f32 = 32 ∨ (Rect.block (s := S2048x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x200x128.size a ≤ S2048x200x128.size a
  hwx0_1 : ∀ i : grid0.Coords, EltTy.bits .f32 = 32 ∨ (Rect.block (s := S2048x200x128) S64x200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x200.size a ≤ S2048x200.size a
  hwx0_2 : ∀ i : grid0.Coords, EltTy.bits .i32 = 32 ∨ (Rect.block (s := S2048x200) S64x200.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S2048x128.size a
  hwx0_9 : ∀ i : grid0.Coords, EltTy.bits .f32 = 32 ∨ (Rect.block (s := S2048x128) S64x128.size (cc0_transform_9 i) (hinb0_9 i)).WholeWords (EltTy.packing .f32)

variable [Facts₀]

def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S12800x128_S128x64_S12800x64_1_0_0_1_n_n : DotDims S12800x128 S128x64 S12800x64 where
  lhsContracting := [1]
  rhsContracting := [0]
  lhsNonContracting := [0]
  rhsNonContracting := [1]
  lhsBatch := []
  rhsBatch := []
  wf := dot_S12800x128_S128x64_S12800x64_1_0_0_1_n_n_wf
def dot_S12800x64_S64x32_S12800x32_1_0_0_1_n_n : DotDims S12800x64 S64x32 S12800x32 where
  lhsContracting := [1]
  rhsContracting := [0]
  lhsNonContracting := [0]
  rhsNonContracting := [1]
  lhsBatch := []
  rhsBatch := []
  wf := dot_S12800x64_S64x32_S12800x32_1_0_0_1_n_n_wf
def dot_S12800x32_S32x1_S12800x1_1_0_0_1_n_n : DotDims S12800x32 S32x1 S12800x1 where
  lhsContracting := [1]
  rhsContracting := [0]
  lhsNonContracting := [0]
  rhsNonContracting := [1]
  lhsBatch := []
  rhsBatch := []
  wf := dot_S12800x32_S32x1_S12800x1_1_0_0_1_n_n_wf

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S64x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2048x128 : Shape := ⟨2, ![2048, 128]⟩
abbrev S2048x200x128 : Shape := ⟨3, ![2048, 200, 128]⟩
abbrev S2048x200 : Shape := ⟨2, ![2048, 200]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2048x1x128 : Shape := ⟨3, ![2048, 1, 128]⟩
abbrev S2048x200x512 : Shape := ⟨3, ![2048, 200, 512]⟩
abbrev S2048x200x64 : Shape := ⟨3, ![2048, 200, 64]⟩
abbrev S1x1x64 : Shape := ⟨3, ![1, 1, 64]⟩
abbrev S_ : Shape := ⟨0, ![]⟩
abbrev S2048x200x32 : Shape := ⟨3, ![2048, 200, 32]⟩
abbrev S1x1x32 : Shape := ⟨3, ![1, 1, 32]⟩
abbrev S2048x200x1 : Shape := ⟨3, ![2048, 200, 1]⟩
abbrev S1x1x1 : Shape := ⟨3, ![1, 1, 1]⟩
abbrev S2048x1 : Shape := ⟨2, ![2048, 1]⟩
abbrev S2048x1x1 : Shape := ⟨3, ![2048, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x200x128, .f32⟩
  | .hbm, ⟨2, _⟩ => ⟨S2048x200, .i32⟩
  | .hbm, ⟨3, _⟩ => ⟨S512x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S2048x1x128, .f32⟩
  | .hbm, ⟨10, _⟩ => ⟨S2048x200x128, .f32⟩
  | .hbm, ⟨11, _⟩ => ⟨S2048x200x128, .f32⟩
  | .hbm, ⟨12, _⟩ => ⟨S2048x200x128, .f32⟩
  | .hbm, ⟨13, _⟩ => ⟨S2048x200x512, .f32⟩
  | .hbm, ⟨14, _⟩ => ⟨S2048x200x64, .f32⟩
  | .hbm, ⟨15, _⟩ => ⟨S1x1x64, .f32⟩
  | .hbm, ⟨16, _⟩ => ⟨S2048x200x64, .f32⟩
  | .hbm, ⟨17, _⟩ => ⟨S2048x200x64, .f32⟩
  | .hbm, ⟨18, _⟩ => ⟨S_, .f32⟩
  | .hbm, ⟨19, _⟩ => ⟨S2048x200x64, .f32⟩
  | .hbm, ⟨20, _⟩ => ⟨S2048x200x64, .f32⟩
  | .hbm, ⟨21, _⟩ => ⟨S2048x200x32, .f32⟩
  | .hbm, ⟨22, _⟩ => ⟨S1x1x32, .f32⟩
  | .hbm, ⟨23, _⟩ => ⟨S2048x200x32, .f32⟩
  | .hbm, ⟨24, _⟩ => ⟨S2048x200x32, .f32⟩
  | .hbm, ⟨25, _⟩ => ⟨S_, .f32⟩
  | .hbm, ⟨26, _⟩ => ⟨S2048x200x32, .f32⟩
  | .hbm, ⟨27, _⟩ => ⟨S2048x200x32, .f32⟩
  | .hbm, ⟨28, _⟩ => ⟨S2048x200x1, .f32⟩
  | .hbm, ⟨29, _⟩ => ⟨S1x1x1, .f32⟩
  | .hbm, ⟨30, _⟩ => ⟨S2048x200x1, .f32⟩
  | .hbm, ⟨31, _⟩ => ⟨S2048x200x1, .f32⟩
  | .hbm, ⟨32, _⟩ => ⟨S_, .i32⟩
  | .hbm, ⟨33, _⟩ => ⟨S2048x200, .i32⟩
  | .hbm, ⟨34, _⟩ => ⟨S2048x200, .i1⟩
  | .hbm, ⟨35, _⟩ => ⟨S2048x200x1, .i1⟩
  | .hbm, ⟨36, _⟩ => ⟨S_, .f32⟩
  | .hbm, ⟨37, _⟩ => ⟨S2048x200x1, .f32⟩
  | .hbm, ⟨38, _⟩ => ⟨S2048x200x1, .f32⟩
  | .hbm, ⟨39, _⟩ => ⟨S_, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1x1, .f32⟩
  | .hbm, ⟨45, _⟩ => ⟨S2048x200x1, .f32⟩
  | .hbm, ⟨46, _⟩ => ⟨S2048x200x1, .f32⟩
  | .hbm, ⟨47, _⟩ => ⟨S2048x200x1, .f32⟩
  | .hbm, ⟨48, _⟩ => ⟨S_, .f32⟩
  | .hbm, ⟨49, _⟩ => ⟨S2048x1, .f32⟩
  | .hbm, ⟨50, _⟩ => ⟨S2048x1x1, .f32⟩
  | .hbm, ⟨51, _⟩ => ⟨S2048x200x1, .f32⟩
  | .hbm, ⟨52, _⟩ => ⟨S2048x200x1, .f32⟩
  | .hbm, ⟨53, _⟩ => ⟨S2048x200x128, .f32⟩
  | .hbm, ⟨54, _⟩ => ⟨S2048x200x128, .f32⟩
  | .hbm, ⟨55, _⟩ => ⟨S_, .f32⟩
  | .hbm, ⟨56, _⟩ => ⟨S2048x128, .f32⟩
  | .hbm, ⟨57, _⟩ => ⟨S_, .f32⟩
  | .hbm, ⟨58, _⟩ => ⟨S2048x128, .f32⟩
  | .hbm, ⟨59, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_cst : Ref sig .tc := ⟨.hbm, 25, rfl⟩
abbrev main_call1_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_call2_v0 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  bcast_S2048x128_S2048x1x128_0_2 : S2048x128.BroadcastsInDim S2048x1x128 (![0, 2] : Fin 2 → Fin S2048x1x128.rank)
  bcast_S2048x1x128_S2048x200x128_0_1_2 : S2048x1x128.BroadcastsInDim S2048x200x128 (![0, 1, 2] : Fin 3 → Fin S2048x200x128.rank)
  concatenates_S2048x200x128_S2048x200x128_S2048x200x128_S2048x200x128_S2048x200x512_d2 : Shape.Concatenates [S2048x200x128, S2048x200x128, S2048x200x128, S2048x200x128] S2048x200x512 2
  bcast_S64_S1x1x64_2 : S64.BroadcastsInDim S1x1x64 (![2] : Fin 1 → Fin S1x1x64.rank)
  bcast_S1x1x64_S2048x200x64_0_1_2 : S1x1x64.BroadcastsInDim S2048x200x64 (![0, 1, 2] : Fin 3 → Fin S2048x200x64.rank)
  bcast_S_S2048x200x64 : S_.BroadcastsInDim S2048x200x64 (![] : Fin 0 → Fin S2048x200x64.rank)
  bcast_S32_S1x1x32_2 : S32.BroadcastsInDim S1x1x32 (![2] : Fin 1 → Fin S1x1x32.rank)
  bcast_S1x1x32_S2048x200x32_0_1_2 : S1x1x32.BroadcastsInDim S2048x200x32 (![0, 1, 2] : Fin 3 → Fin S2048x200x32.rank)
  bcast_S_S2048x200x32 : S_.BroadcastsInDim S2048x200x32 (![] : Fin 0 → Fin S2048x200x32.rank)
  bcast_S1_S1x1x1_2 : S1.BroadcastsInDim S1x1x1 (![2] : Fin 1 → Fin S1x1x1.rank)
  bcast_S1x1x1_S2048x200x1_0_1_2 : S1x1x1.BroadcastsInDim S2048x200x1 (![0, 1, 2] : Fin 3 → Fin S2048x200x1.rank)
  bcast_S_S2048x200 : S_.BroadcastsInDim S2048x200 (![] : Fin 0 → Fin S2048x200.rank)
  bcast_S2048x200_S2048x200x1_0_1 : S2048x200.BroadcastsInDim S2048x200x1 (![0, 1] : Fin 2 → Fin S2048x200x1.rank)
  bcast_S_S2048x200x1 : S_.BroadcastsInDim S2048x200x1 (![] : Fin 0 → Fin S2048x200x1.rank)
  reducesTo_S2048x200x1_S2048x1_d1 : S2048x200x1.ReducesTo [1] S2048x1
  h_S_ : 0 < S_.numel
  bcast_S_S2048x1 : S_.BroadcastsInDim S2048x1 (![] : Fin 0 → Fin S2048x1.rank)
  bcast_S2048x1_S2048x1x1_0_2 : S2048x1.BroadcastsInDim S2048x1x1 (![0, 2] : Fin 2 → Fin S2048x1x1.rank)
  bcast_S2048x1x1_S2048x200x1_0_1_2 : S2048x1x1.BroadcastsInDim S2048x200x1 (![0, 1, 2] : Fin 3 → Fin S2048x200x1.rank)
  bcast_S2048x200x1_S2048x200x128_0_1_2 : S2048x200x1.BroadcastsInDim S2048x200x128 (![0, 1, 2] : Fin 3 → Fin S2048x200x128.rank)
  reducesTo_S2048x200x128_S2048x128_d1 : S2048x200x128.ReducesTo [1] S2048x128
  bcast_S_S2048x128 : S_.BroadcastsInDim S2048x128 (![] : Fin 0 → Fin S2048x128.rank)
  dot_S2048x200x512_S512x64_S2048x200x64_2_0_01_1_n_n_wf : DotDims.WF S2048x200x512 S512x64 S2048x200x64 [2] [0] [0, 1] [1] [] []
  dot_S2048x200x64_S64x32_S2048x200x32_2_0_01_1_n_n_wf : DotDims.WF S2048x200x64 S64x32 S2048x200x32 [2] [0] [0, 1] [1] [] []
  dot_S2048x200x32_S32x1_S2048x200x1_2_0_01_1_n_n_wf : DotDims.WF S2048x200x32 S32x1 S2048x200x1 [2] [0] [0, 1] [1] [] []

variable [Facts₀]

def dot_S2048x200x512_S512x64_S2048x200x64_2_0_01_1_n_n : DotDims S2048x200x512 S512x64 S2048x200x64 where
  lhsContracting := [2]
  rhsContracting := [0]
  lhsNonContracting := [0, 1]
  rhsNonContracting := [1]
  lhsBatch := []
  rhsBatch := []
  wf := dot_S2048x200x512_S512x64_S2048x200x64_2_0_01_1_n_n_wf
def dot_S2048x200x64_S64x32_S2048x200x32_2_0_01_1_n_n : DotDims S2048x200x64 S64x32 S2048x200x32 where
  lhsContracting := [2]
  rhsContracting := [0]
  lhsNonContracting := [0, 1]
  rhsNonContracting := [1]
  lhsBatch := []
  rhsBatch := []
  wf := dot_S2048x200x64_S64x32_S2048x200x32_2_0_01_1_n_n_wf
def dot_S2048x200x32_S32x1_S2048x200x1_2_0_01_1_n_n : DotDims S2048x200x32 S32x1 S2048x200x1 where
  lhsContracting := [2]
  rhsContracting := [0]
  lhsNonContracting := [0, 1]
  rhsNonContracting := [1]
  lhsBatch := []
  rhsBatch := []
  wf := dot_S2048x200x32_S32x1_S2048x200x1_2_0_01_1_n_n_wf

class Facts : Prop extends Facts₀ where

variable [Facts]
-- ==== Proof.LibRank3.lean ====
/-
  Rank-three arrays read at an index: the two leading axes of an `[a, b, c]` array flattened to one
  axis of `a * b` rows and back (row `p * b + q` of the flat array is entry `(p, q)` of the leading
  axes); a unit axis added in the middle, at the end or twice in front; a broadcast along the middle
  axis, along the last axis and along both leading axes; and the index that a reduction along the
  middle axis puts back.
-/
import Idealize.ShloMosaic.Lib.Pipeline.Value
import Idealize.ShloMosaic.Lib.ValueIdx
import Idealize.ShloMosaic.PureOps.Reduce

noncomputable section

namespace Cert.Rank3

open Idealize.ShloMosaic Idealize.ShloMosaic.ValueIdx

variable {α : Type}

/-- Row `p * b + q` lies among the `n = a * b` flat rows. -/
theorem flat_lt {a b n : ℕ} (hn : n = a * b) (p : Fin a) (q : Fin b) : p.val * b + q.val < n := by
  have hp := p.isLt
  have hq := q.isLt
  have : p.val * b + q.val < (p.val + 1) * b := by rw [Nat.add_mul, Nat.one_mul]; omega
  exact hn ▸ Nat.lt_of_lt_of_le this (Nat.mul_le_mul_right b hp)

/-- The flat row of entry `(p, q)` of the leading axes. -/
abbrev flat {a b n : ℕ} (hn : n = a * b) (p : Fin a) (q : Fin b) : Fin n := ⟨p.val * b + q.val, flat_lt hn p q⟩

/-- An `[a, b, c]` array flattened to `[a * b, c]` reads, at row `p * b + q` and column `r`, the entry `(p, q, r)`. -/
theorem shapeCast_abc_nc_apply {a b c n : ℕ} (hn : n = a * b) (x : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ x h (ix2 (flat hn p q) r) = x (ix3 p q r) :=
  shapeCast_apply x h _ _ (by
    rw [Shape.rowMajor_val_three, Shape.rowMajor_val_two]
    rfl)

/-- An `[a * b, c]` array viewed as `[a, b, c]` reads, at `(p, q, r)`, row `p * b + q` at column `r`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ x h (ix3 p q r) = x (ix2 (flat hn p q) r) :=
  shapeCast_apply x h _ _ (by
    rw [Shape.rowMajor_val_three, Shape.rowMajor_val_two]
    rfl)

/-- An `[a, c]` array with a unit axis put in the middle reads, at `(p, u, r)`, the entry `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An `[a, b]` array with a unit axis put at the end reads, at `(p, q, u)`, the entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A `[c]` vector with two unit axes put in front reads, at `(u, v, r)`, the entry `r`. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    rw [hu, hv]
    simp)

/-- An `[a, 1, c]` array broadcast along its middle axis reads, at `(p, q, r)`, the entry `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An `[a, b, 1]` array broadcast along its last axis reads, at `(p, q, r)`, the entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast along both leading axes reads, at `(p, q, r)`, the entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- Over entry `(p, r)` of the result, position `k` of a reduction along the middle axis is `(p, k, r)`. -/
theorem lift_mid {a b c : ℕ} (h : Shape.Reduces ⟨3, ![a, b, c]⟩ [1] ⟨2, ![a, c]⟩) (p : Fin a) (r : Fin c) (k : Fin b) :
    h.lift (ix2 p r) k = ix3 p k r :=
  funext fun ax => Fin.ext (by match ax with | ⟨0, _⟩ => rfl | ⟨1, _⟩ => rfl | ⟨2, _⟩ => rfl)

end Cert.Rank3

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.Spec.lean ====
/-
  Attention pooling with a learned scorer, one batch row at a time.

  A batch row has a query `q` of 128 entries, 200 keys of 128 entries each and an id per key. Key `t` is
  scored by a small network on the 512 features `[q, k, q - k, q * k]`: two hidden layers of 64 and 32
  units, each `max (·) 0` of an affine map, and an affine output of one unit. A key whose id is zero gets
  a fixed large negative score instead. The 200 scores go through a softmax (subtract their maximum,
  exponentiate, divide by the sum), and the row's result is the weighted sum of its keys divided by
  the number of keys.

  The first hidden layer is written as FOUR sums of 128 products — one per feature group, against the
  matching 128 rows of the 512-row weight matrix — added left to right; `sum_four_blocks` says a sum
  over 512 consecutive positions is those four sums, which holds in any commutative monoid, so at
  the extended reals too, infinities included.
-/
import Idealize.ShloMosaic.PureOps.Ideal
import Idealize.ShloMosaic.PureOps.Ideal.Laws
import Idealize.ShloMosaic.Lib.ValueIdx

noncomputable section

namespace Cert.AttnPool

open Idealize.ShloMosaic

/-! ## The algebra -/

/-- A sum over 512 consecutive positions is the sum of its four quarters, added left to right. -/
theorem sum_four_blocks {M : Type*} [AddCommMonoid M] (g : ℕ → M) :
    ∑ k : Fin 512, g k.val
      = ((∑ e : Fin 128, g e.val + ∑ e : Fin 128, g (128 + e.val)) + ∑ e : Fin 128, g (256 + e.val))
          + ∑ e : Fin 128, g (384 + e.val) := by
  rw [Fin.sum_univ_eq_sum_range g 512, Fin.sum_univ_eq_sum_range g 128,
    Fin.sum_univ_eq_sum_range (fun e => g (128 + e)) 128, Fin.sum_univ_eq_sum_range (fun e => g (256 + e)) 128,
    Fin.sum_univ_eq_sum_range (fun e => g (384 + e)) 128,
    show (512 : ℕ) = 384 + 128 from rfl, Finset.sum_range_add, show (384 : ℕ) = 256 + 128 from rfl, Finset.sum_range_add,
    show (256 : ℕ) = 128 + 128 from rfl, Finset.sum_range_add]

/-- The same for a function of the 512 positions themselves. -/
theorem sum_four_blocks_fin {M : Type*} [AddCommMonoid M] (f : Fin 512 → M) :
    ∑ k : Fin 512, f k
      = ((∑ e : Fin 128, f ⟨0 + e.val, by have := e.isLt; omega⟩ + ∑ e : Fin 128, f ⟨128 + e.val, by have := e.isLt; omega⟩)
          + ∑ e : Fin 128, f ⟨256 + e.val, by have := e.isLt; omega⟩) + ∑ e : Fin 128, f ⟨384 + e.val, by have := e.isLt; omega⟩ := by
  have hmod : ∀ n : ℕ, n % 512 < 512 := fun n => Nat.mod_lt _ (by norm_num)
  have key := sum_four_blocks (fun n => f ⟨n % 512, hmod n⟩)
  have blk : ∀ (o : ℕ) (ho : o + 128 ≤ 512) (e : Fin 128),
      f ⟨(o + e.val) % 512, hmod _⟩ = f ⟨o + e.val, by have := e.isLt; omega⟩ :=
    fun o ho e => congrArg f (Fin.ext (Nat.mod_eq_of_lt (by have := e.isLt; omega)))
  calc ∑ k : Fin 512, f k = ∑ k : Fin 512, f ⟨k.val % 512, hmod _⟩ :=
        Finset.sum_congr rfl fun k _ => congrArg f (Fin.ext (Nat.mod_eq_of_lt k.isLt).symm)
    _ = _ := key
    _ = _ := by
        refine congrArg₂ (· + ·) (congrArg₂ (· + ·) (congrArg₂ (· + ·) ?_ ?_) ?_) ?_
        · exact Finset.sum_congr rfl fun e _ => congrArg f (Fin.ext (by
            show e.val % 512 = 0 + e.val
            have := e.isLt; omega))
        · exact Finset.sum_congr rfl fun e _ => blk 128 (by omega) e
        · exact Finset.sum_congr rfl fun e _ => blk 256 (by omega) e
        · exact Finset.sum_congr rfl fun e _ => blk 384 (by omega) e

/-- A running maximum is at least the value it starts from, so taking the maximum with that value
    again changes nothing. -/
theorem max_fold_max {ι : Type*} (s : Finset ι) (b : EReal) (f : ι → EReal) :
    max b (s.fold max b f) = s.fold max b f :=
  max_eq_right ((Finset.le_fold_max (c := b)).2 (Or.inl le_rfl))

/-! ## One batch row -/

/-- The zero the two hidden layers are clamped at. -/
abbrev zero : EReal := Ideal.ofBits .f32 0x00000000#32

/-- The score given to a key whose id is zero: a large negative number. -/
abbrev fill : EReal := Ideal.ofBits .f32 0xCF800000#32

/-- The value the running maximum of a row's scores starts from. -/
abbrev lowest : EReal := Ideal.ofBits .f32 0xFF800000#32

/-- The number of keys, as the divisor of the weighted sum. -/
abbrev count : EReal := Ideal.ofBits .f32 0x43480000#32

/-- Row `o + e` of the 512-row weight matrix, for a position `e` in a feature group that starts at row `o`. -/
abbrev wrow (W1 : Fin 512 → Fin 64 → EReal) (o : ℕ) (ho : o + 128 ≤ 512) (e : Fin 128) (h : Fin 64) : EReal :=
  W1 ⟨o + e.val, by have := e.isLt; omega⟩ h

/-- First hidden layer before the clamp, unit `h`, for query `q` and key `k`: the four feature groups `q`, `k`, `q - k`, `q * k`
    against rows 0–127, 128–255, 256–383, 384–511 of `W1`, added left to right, plus the bias. -/
def preact1 (q k : Fin 128 → EReal) (W1 : Fin 512 → Fin 64 → EReal) (b1 : Fin 64 → EReal) (h : Fin 64) : EReal :=
  ((((∑ e : Fin 128, q e * wrow W1 0 (by omega) e h) + ∑ e : Fin 128, k e * wrow W1 128 (by omega) e h)
        + ∑ e : Fin 128, (q e - k e) * wrow W1 256 (by omega) e h)
        + ∑ e : Fin 128, (q e * k e) * wrow W1 384 (by omega) e h) + b1 h

/-- First hidden layer, unit `h`: the clamp at zero of `preact1`. -/
def hidden1 (q k : Fin 128 → EReal) (W1 : Fin 512 → Fin 64 → EReal) (b1 : Fin 64 → EReal) (h : Fin 64) : EReal :=
  max (preact1 q k W1 b1 h) zero

/-- Second hidden layer, unit `j`. -/
def hidden2 (h1 : Fin 64 → EReal) (W2 : Fin 64 → Fin 32 → EReal) (b2 : Fin 32 → EReal) (j : Fin 32) : EReal :=
  max ((∑ h : Fin 64, h1 h * W2 h j) + b2 j) zero

/-- The output unit: a key's raw score. -/
def score (h2 : Fin 32 → EReal) (W3 : Fin 32 → EReal) (b3 : EReal) : EReal :=
  (∑ j : Fin 32, h2 j * W3 j) + b3

/-- The parameters of the scorer. -/
structure Params where
  W1 : Fin 512 → Fin 64 → EReal
  b1 : Fin 64 → EReal
  W2 : Fin 64 → Fin 32 → EReal
  b2 : Fin 32 → EReal
  W3 : Fin 32 → EReal
  b3 : EReal

/-- Key `t`'s score in its row: the network's output where the key's id is not zero, the fill value where it is. -/
def masked (P : Params) (q : Fin 128 → EReal) (keys : Fin 200 → Fin 128 → EReal) (ids : Fin 200 → BitVec 32)
    (t : Fin 200) : EReal :=
  Scalar.select (IntOp.cmpi .ne (ids t) 0#32)
    (score (hidden2 (hidden1 q (keys t) P.W1 P.b1) P.W2 P.b2) P.W3 P.b3) fill

/-- The largest of a row's scores. -/
def rowMax (w : Fin 200 → EReal) : EReal := Finset.univ.fold max lowest w

/-- A score's exponential after the row's maximum is subtracted. -/
def expw (w : Fin 200 → EReal) (t : Fin 200) : EReal := Ideal.exp (w t - rowMax w)

/-- The softmax weight of key `t`. -/
def weight (w : Fin 200 → EReal) (t : Fin 200) : EReal := Ideal.div (expw w t) (∑ k : Fin 200, expw w k)

/-- Entry `e` of the row's result: the keys' weighted sum over the number of keys. -/
def pooled (w : Fin 200 → EReal) (keys : Fin 200 → Fin 128 → EReal) (e : Fin 128) : EReal :=
  Ideal.div (∑ t : Fin 200, weight w t * keys t e) count

/-- The whole row: scores, softmax, pooling. -/
def row (P : Params) (q : Fin 128 → EReal) (keys : Fin 200 → Fin 128 → EReal) (ids : Fin 200 → BitVec 32)
    (e : Fin 128) : EReal :=
  pooled (masked P q keys ids) keys e

/-! ## The whole batch -/

open Idealize.ShloMosaic.ValueIdx

/-- The scorer's parameters read off their arrays: `[512, 64]`, `[64]`, `[64, 32]`, `[32]`, `[32, 1]`, `[1]`. -/
def params (x3 : (⟨2, ![512, 64]⟩ : Shape).Idx → EReal) (x4 : (⟨1, ![64]⟩ : Shape).Idx → EReal)
    (x5 : (⟨2, ![64, 32]⟩ : Shape).Idx → EReal) (x6 : (⟨1, ![32]⟩ : Shape).Idx → EReal)
    (x7 : (⟨2, ![32, 1]⟩ : Shape).Idx → EReal) (x8 : (⟨1, ![1]⟩ : Shape).Idx → EReal) : Params where
  W1 := fun f g => x3 (ix2 f g)
  b1 := fun g => x4 (ix1 g)
  W2 := fun h j => x5 (ix2 h j)
  b2 := fun j => x6 (ix1 j)
  W3 := fun j => x7 (ix2 j (0 : Fin 1))
  b3 := x8 (ix1 (0 : Fin 1))

/-- Entry `(b, e)` of the result for 2048 batch rows: `row` of batch row `b`. -/
def resultAt (q : (⟨2, ![2048, 128]⟩ : Shape).Idx → EReal) (keys : (⟨3, ![2048, 200, 128]⟩ : Shape).Idx → EReal)
    (ids : (⟨2, ![2048, 200]⟩ : Shape).Idx → BitVec 32)
    (x3 : (⟨2, ![512, 64]⟩ : Shape).Idx → EReal) (x4 : (⟨1, ![64]⟩ : Shape).Idx → EReal)
    (x5 : (⟨2, ![64, 32]⟩ : Shape).Idx → EReal) (x6 : (⟨1, ![32]⟩ : Shape).Idx → EReal)
    (x7 : (⟨2, ![32, 1]⟩ : Shape).Idx → EReal) (x8 : (⟨1, ![1]⟩ : Shape).Idx → EReal) (b : Fin 2048) (e : Fin 128) : EReal :=
  row (params x3 x4 x5 x6 x7 x8) (fun e => q (ix2 b e)) (fun t e => keys (ix3 b t e)) (fun t => ids (ix2 b t)) e

/-- The result array. -/
def result (q : (⟨2, ![2048, 128]⟩ : Shape).Idx → EReal) (keys : (⟨3, ![2048, 200, 128]⟩ : Shape).Idx → EReal)
    (ids : (⟨2, ![2048, 200]⟩ : Shape).Idx → BitVec 32)
    (x3 : (⟨2, ![512, 64]⟩ : Shape).Idx → EReal) (x4 : (⟨1, ![64]⟩ : Shape).Idx → EReal)
    (x5 : (⟨2, ![64, 32]⟩ : Shape).Idx → EReal) (x6 : (⟨1, ![32]⟩ : Shape).Idx → EReal)
    (x7 : (⟨2, ![32, 1]⟩ : Shape).Idx → EReal) (x8 : (⟨1, ![1]⟩ : Shape).Idx → EReal) :
    (⟨2, ![2048, 128]⟩ : Shape).Idx → EReal :=
  fun i => resultAt q keys ids x3 x4 x5 x6 x7 x8 (i 0) (i 1)

end Cert.AttnPool

end
-- ==== Proof.KernelHidden.lean ====
/-
  The kernel's first hidden layer, read at an entry.

  A block holds 64 batch rows. The body flattens the block's keys `[64, 200, 128]` to `12800` rows of 128,
  multiplies them by rows 128–255 of the weight matrix, does the same with `q - k` (rows 256–383) and
  `q * k` (rows 384–511) after repeating each row's query along its 200 keys, multiplies the queries
  themselves by rows 0–127 once per batch row, and adds the four products and the bias. Flat row
  `r * 200 + t` is key `t` of batch row `r`, so at `(r, t, h)` the sum is `preact1` of row `r`'s query and
  its key `t`.
-/
import proofs.«154571_j50371376447725_1_alg».proof.Proof.Gen.KernelIdeal.Frame
import proofs.«154571_j50371376447725_1_alg».proof.Proof.LibRank3
import proofs.«154571_j50371376447725_1_alg».proof.Proof.LibMatmul
import proofs.«154571_j50371376447725_1_alg».proof.Proof.Spec
import Idealize.ShloMosaic.Lib.ValueLayout

noncomputable section

namespace Cert.KernelIdeal.Body

open Cert.KernelIdeal Cert.KernelIdeal.Gen Idealize.ShloMosaic Idealize.ShloMosaic.ValueIdx Cert.Rank3 Cert.AttnPool

/-- The 12800 flat rows of a block are its 64 batch rows' 200 keys. -/
theorem rows_eq : (12800 : ℕ) = 64 * 200 := rfl

/-! ## The four matrix products -/

/-- Queries `[64, 128]` times a `[128, 64]` slab of the weights. -/
theorem dotQ_apply (lhs : FVec Ideal S64x128 .f32) (rhs : FVec Ideal S128x64 .f32) (p : Fin 64) (c : Fin 64) :
    matmul dot_S64x128_S128x64_S64x64_1_0_0_1_n_n none lhs rhs (constant S64x64 .f32 0x00000000#32) (ix2 p c)
      = ∑ k : Fin 128, lhs (ix2 p k) * rhs (ix2 k c) :=
  Cert.PlainDot.matmul_zero_apply dot_S64x128_S128x64_S64x64_1_0_0_1_n_n none rfl rfl
    (fun i q => by
      unfold DotDims.lhsIdx
      rw [dif_neg (show ¬(0 : Fin S64x128.rank) ∈ dot_S64x128_S128x64_S64x64_1_0_0_1_n_n.lhsBatch by decide),
        dif_pos (show (0 : Fin S64x128.rank) ∈ dot_S64x128_S128x64_S64x64_1_0_0_1_n_n.lhsNonContracting by decide)]
      rfl)
    (fun i q => dot_S64x128_S128x64_S64x64_1_0_0_1_n_n.lhsIdx_val_of_single rfl i q)
    (fun i q => dot_S64x128_S128x64_S64x64_1_0_0_1_n_n.rhsIdx_val_of_single rfl i q)
    (fun i q => by
      unfold DotDims.rhsIdx
      rw [dif_neg (show ¬(1 : Fin S128x64.rank) ∈ dot_S64x128_S128x64_S64x64_1_0_0_1_n_n.rhsBatch by decide),
        dif_pos (show (1 : Fin S128x64.rank) ∈ dot_S64x128_S128x64_S64x64_1_0_0_1_n_n.rhsNonContracting by decide)]
      rfl)
    lhs rhs p c

/-- Flat keys `[12800, 128]` times a `[128, 64]` slab of the weights. -/
theorem dotK_apply (lhs : FVec Ideal S12800x128 .f32) (rhs : FVec Ideal S128x64 .f32) (p : Fin 12800) (c : Fin 64) :
    matmul dot_S12800x128_S128x64_S12800x64_1_0_0_1_n_n none lhs rhs (constant S12800x64 .f32 0x00000000#32) (ix2 p c)
      = ∑ k : Fin 128, lhs (ix2 p k) * rhs (ix2 k c) :=
  Cert.PlainDot.matmul_zero_apply dot_S12800x128_S128x64_S12800x64_1_0_0_1_n_n none rfl rfl
    (fun i q => by
      unfold DotDims.lhsIdx
      rw [dif_neg (show ¬(0 : Fin S12800x128.rank) ∈ dot_S12800x128_S128x64_S12800x64_1_0_0_1_n_n.lhsBatch by decide),
        dif_pos (show (0 : Fin S12800x128.rank) ∈ dot_S12800x128_S128x64_S12800x64_1_0_0_1_n_n.lhsNonContracting by decide)]
      rfl)
    (fun i q => dot_S12800x128_S128x64_S12800x64_1_0_0_1_n_n.lhsIdx_val_of_single rfl i q)
    (fun i q => dot_S12800x128_S128x64_S12800x64_1_0_0_1_n_n.rhsIdx_val_of_single rfl i q)
    (fun i q => by
      unfold DotDims.rhsIdx
      rw [dif_neg (show ¬(1 : Fin S128x64.rank) ∈ dot_S12800x128_S128x64_S12800x64_1_0_0_1_n_n.rhsBatch by decide),
        dif_pos (show (1 : Fin S128x64.rank) ∈ dot_S12800x128_S128x64_S12800x64_1_0_0_1_n_n.rhsNonContracting by decide)]
      rfl)
    lhs rhs p c

/-- First hidden layer `[12800, 64]` times the second layer's weights `[64, 32]`. -/
theorem dotH_apply (lhs : FVec Ideal S12800x64 .f32) (rhs : FVec Ideal S64x32 .f32) (p : Fin 12800) (c : Fin 32) :
    matmul dot_S12800x64_S64x32_S12800x32_1_0_0_1_n_n none lhs rhs (constant S12800x32 .f32 0x00000000#32) (ix2 p c)
      = ∑ k : Fin 64, lhs (ix2 p k) * rhs (ix2 k c) :=
  Cert.PlainDot.matmul_zero_apply dot_S12800x64_S64x32_S12800x32_1_0_0_1_n_n none rfl rfl
    (fun i q => by
      unfold DotDims.lhsIdx
      rw [dif_neg (show ¬(0 : Fin S12800x64.rank) ∈ dot_S12800x64_S64x32_S12800x32_1_0_0_1_n_n.lhsBatch by decide),
        dif_pos (show (0 : Fin S12800x64.rank) ∈ dot_S12800x64_S64x32_S12800x32_1_0_0_1_n_n.lhsNonContracting by decide)]
      rfl)
    (fun i q => dot_S12800x64_S64x32_S12800x32_1_0_0_1_n_n.lhsIdx_val_of_single rfl i q)
    (fun i q => dot_S12800x64_S64x32_S12800x32_1_0_0_1_n_n.rhsIdx_val_of_single rfl i q)
    (fun i q => by
      unfold DotDims.rhsIdx
      rw [dif_neg (show ¬(1 : Fin S64x32.rank) ∈ dot_S12800x64_S64x32_S12800x32_1_0_0_1_n_n.rhsBatch by decide),
        dif_pos (show (1 : Fin S64x32.rank) ∈ dot_S12800x64_S64x32_S12800x32_1_0_0_1_n_n.rhsNonContracting by decide)]
      rfl)
    lhs rhs p c

/-- Second hidden layer `[12800, 32]` times the output weights `[32, 1]`. -/
theorem dotO_apply (lhs : FVec Ideal S12800x32 .f32) (rhs : FVec Ideal S32x1 .f32) (p : Fin 12800) (c : Fin 1) :
    matmul dot_S12800x32_S32x1_S12800x1_1_0_0_1_n_n none lhs rhs (constant S12800x1 .f32 0x00000000#32) (ix2 p c)
      = ∑ k : Fin 32, lhs (ix2 p k) * rhs (ix2 k c) :=
  Cert.PlainDot.matmul_zero_apply dot_S12800x32_S32x1_S12800x1_1_0_0_1_n_n none rfl rfl
    (fun i q => by
      unfold DotDims.lhsIdx
      rw [dif_neg (show ¬(0 : Fin S12800x32.rank) ∈ dot_S12800x32_S32x1_S12800x1_1_0_0_1_n_n.lhsBatch by decide),
        dif_pos (show (0 : Fin S12800x32.rank) ∈ dot_S12800x32_S32x1_S12800x1_1_0_0_1_n_n.lhsNonContracting by decide)]
      rfl)
    (fun i q => dot_S12800x32_S32x1_S12800x1_1_0_0_1_n_n.lhsIdx_val_of_single rfl i q)
    (fun i q => dot_S12800x32_S32x1_S12800x1_1_0_0_1_n_n.rhsIdx_val_of_single rfl i q)
    (fun i q => by
      unfold DotDims.rhsIdx
      rw [dif_neg (show ¬(1 : Fin S32x1.rank) ∈ dot_S12800x32_S32x1_S12800x1_1_0_0_1_n_n.rhsBatch by decide),
        dif_pos (show (1 : Fin S32x1.rank) ∈ dot_S12800x32_S32x1_S12800x1_1_0_0_1_n_n.rhsNonContracting by decide)]
      rfl)
    lhs rhs p c

/-! ## The pieces of the first layer -/

/-- A `[64, 200, 128]` array of per-key features, flattened, multiplied by a weight slab and folded back,
    is at `(r, t, h)` the product of key `t` of row `r`'s features with column `h` of the slab. -/
theorem keyProj_apply (y : FVec Ideal S64x200x128 .f32) (w : FVec Ideal S128x64 .f32)
    (h1 : S64x200x128.ShapeCasts S12800x128) (h2 : S12800x64.ShapeCasts S64x200x64) (r : Fin 64) (t : Fin 200) (h : Fin 64) :
    shapeCast S64x200x64 (matmul dot_S12800x128_S128x64_S12800x64_1_0_0_1_n_n none (shapeCast S12800x128 y h1) w
        (constant S12800x64 .f32 0x00000000#32)) h2 (ix3 r t h)
      = ∑ e : Fin 128, y (ix3 r t e) * w (ix2 e h) := by
  rw [shapeCast_nc_abc_apply rows_eq, dotK_apply]
  exact Finset.sum_congr rfl fun e _ => by rw [shapeCast_abc_nc_apply rows_eq]

/-- The queries' product with their weight slab, computed once per batch row and repeated along the keys. -/
theorem queryProj_apply (x0 : FVec Ideal S64x128 .f32) (w : FVec Ideal S128x64 .f32)
    (h1 : S64x64.ShapeCasts S64x1x64) (h2 : S64x1x64.Broadcasts S64x200x64) (r : Fin 64) (t : Fin 200) (h : Fin 64) :
    broadcastTo S64x200x64 (shapeCast S64x1x64 (matmul dot_S64x128_S128x64_S64x64_1_0_0_1_n_n none x0 w
        (constant S64x64 .f32 0x00000000#32)) h1) h2 (ix3 r t h)
      = ∑ e : Fin 128, x0 (ix2 r e) * w (ix2 e h) := by
  rw [broadcastTo_a1c_abc_apply, shapeCast_ac_a1c_apply, dotQ_apply]

/-- Each batch row's query repeated along its 200 keys. -/
theorem queryRep_apply (x0 : FVec Ideal S64x128 .f32) (h1 : S64x128.ShapeCasts S64x1x128)
    (h2 : S64x1x128.Broadcasts S64x200x128) (r : Fin 64) (t : Fin 200) (e : Fin 128) :
    broadcastTo S64x200x128 (shapeCast S64x1x128 x0 h1) h2 (ix3 r t e) = x0 (ix2 r e) := by
  rw [broadcastTo_a1c_abc_apply, shapeCast_ac_a1c_apply]

/-- The first layer's bias repeated over batch rows and keys. -/
theorem bias1_apply (x4 : FVec Ideal S64 .f32) (h1 : S64.ShapeCasts S1x1x64) (h2 : S1x1x64.Broadcasts S64x200x64)
    (r : Fin 64) (t : Fin 200) (h : Fin 64) :
    broadcastTo S64x200x64 (shapeCast S1x1x64 x4 h1) h2 (ix3 r t h) = x4 (ix1 h) := by
  rw [broadcastTo_11c_abc_apply, shapeCast_c_11c_apply]

/-! ## The first payload -/

/-- At `(r, t, h)` the body's first-layer sum is `preact1` of batch row `r`'s query and its key `t`. -/
theorem pay2_apply (x0 : Vec Ideal S64x128 .f32) (x1 : Vec Ideal S64x200x128 .f32) (x3 : Vec Ideal S512x64 .f32)
    (x4 : Vec Ideal S64 .f32) (r : Fin 64) (t : Fin 200) (h : Fin 64) :
    k0_pay2 x0 x1 x3 x4 (ix3 r t h)
      = preact1 (fun e => x0 (ix2 r e)) (fun e => x1 (ix3 r t e)) (fun f g => x3 (ix2 f g)) (fun g => x4 (ix1 g)) h := by
  unfold k0_pay2 preact1
  simp only [addf_apply, queryProj_apply, keyProj_apply, bias1_apply, subf_apply, mulf_apply, queryRep_apply,
    slice2_axis0_eq]

end Cert.KernelIdeal.Body

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.KernelTail.lean ====
/-
  The rest of the kernel's body, read at an entry: the second hidden layer and the output unit on the
  12800 flat rows, folded back to `[64, 200, 1]`; the fill value where a key's id is zero; the softmax
  along each batch row's 200 keys (row maximum, exponentials, their sum, the quotient); and the weighted
  sum of the keys over the number of keys. The body is cut into named stages, the stored value is
  their composition, and each stage is read at an entry of batch row `r`; together they are `row` of
  the specification, of row `r`'s query, keys and ids.
-/
import proofs.«154571_j50371376447725_1_alg».proof.Proof.KernelHidden
import proofs.«154571_j50371376447725_1_alg».proof.Proof.LibColumns

noncomputable section

namespace Cert.KernelIdeal.Body

open Cert.KernelIdeal Cert.KernelIdeal.Gen Idealize.ShloMosaic Idealize.ShloMosaic.ValueIdx Cert.Rank3 Cert.AttnPool Cert.Columns

/-! ## The stages -/

/-- Second hidden layer on the flat rows: `max (a W2 + b2) 0`. -/
def kHidden2 (a : FVec Ideal S64x200x64 .f32) (x5 : FVec Ideal S64x32 .f32) (x6 : FVec Ideal S32 .f32) : FVec Ideal S12800x32 .f32 :=
  maximumf (addf (matmul dot_S12800x64_S64x32_S12800x32_1_0_0_1_n_n none (shapeCast S12800x64 a shapeCasts_S64x200x64_S12800x64) x5
      (constant S12800x32 .f32 0x00000000#32)) (broadcastTo S12800x32 (shapeCast S1x32 x6 shapeCasts_S32_S1x32) broadcasts_S1x32_S12800x32))
    (broadcast S12800x32 (Scalar.ofBits .f32 0x00000000#32))

/-- The output unit on the flat rows, folded back to one score per batch row and key. -/
def kScore (b : FVec Ideal S12800x32 .f32) (x7 : FVec Ideal S32x1 .f32) (x8 : FVec Ideal S1 .f32) : FVec Ideal S64x200x1 .f32 :=
  shapeCast S64x200x1 (addf (matmul dot_S12800x32_S32x1_S12800x1_1_0_0_1_n_n none b x7 (constant S12800x1 .f32 0x00000000#32))
      (broadcastTo S12800x1 (shapeCast S1x1 x8 shapeCasts_S1_S1x1) broadcasts_S1x1_S12800x1)) shapeCasts_S12800x1_S64x200x1

/-- The fill value where a key's id is zero. -/
def kMasked (x2 : Vec Ideal S64x200 .i32) (s : FVec Ideal S64x200x1 .f32) : FVec Ideal S64x200x1 .f32 :=
  select (shapeCast S64x200x1 (cmpi .ne x2 (broadcast S64x200 0#32)) shapeCasts_S64x200_S64x200x1) s
    (broadcast S64x200x1 (Scalar.ofBits .f32 0xCF800000#32))

/-- Each batch row's largest score, repeated along its keys. -/
def kRowMax (w : FVec Ideal S64x200x1 .f32) : FVec Ideal S64x200x1 .f32 :=
  broadcastTo S64x200x1 (shapeCast S64x1x1 (multiReduction .maximumf [1] S64x1 w 0xFF800000#32 reduces_S64x200x1_S64x1 (.inl rfl) rfl)
    shapeCasts_S64x1_S64x1x1) broadcasts_S64x1x1_S64x200x1

/-- The exponentials of the scores less their row's maximum. -/
def kExp (w : FVec Ideal S64x200x1 .f32) : FVec Ideal S64x200x1 .f32 := exp (subf w (kRowMax w))

/-- Each batch row's sum, repeated along its keys. -/
def kRowSum (x : FVec Ideal S64x200x1 .f32) : FVec Ideal S64x200x1 .f32 :=
  broadcastTo S64x200x1 (shapeCast S64x1x1 (multiReduction .add [1] S64x1 x 0x00000000#32 reduces_S64x200x1_S64x1 (.inl rfl) rfl)
    shapeCasts_S64x1_S64x1x1) broadcasts_S64x1x1_S64x200x1

/-- The softmax weights. -/
def kWeight (w : FVec Ideal S64x200x1 .f32) : FVec Ideal S64x200x1 .f32 := divf (kExp w) (kRowSum (kExp w))

/-- The keys' weighted sum over the number of keys. -/
def kPool (w : FVec Ideal S64x200x1 .f32) (x1 : FVec Ideal S64x200x128 .f32) : FVec Ideal S64x128 .f32 :=
  divf (multiReduction .add [1] S64x128 (mulf (broadcastTo S64x200x128 (kWeight w) broadcasts_S64x200x1_S64x200x128) x1) 0x00000000#32
      reduces_S64x200x128_S64x128 (.inl rfl) rfl) (broadcast S64x128 (Scalar.ofBits .f32 0x43480000#32))

/-- The stored value is the composition of the stages. -/
theorem pay1_eq (x1 : Vec Ideal S64x200x128 .f32) (x2 : Vec Ideal S64x200 .i32) (x5 : Vec Ideal S64x32 .f32) (x6 : Vec Ideal S32 .f32)
    (x7 : Vec Ideal S32x1 .f32) (x8 : Vec Ideal S1 .f32) (v36 v37 : FVec Ideal S64x200x64 .f32) :
    k0_pay1 x1 x2 x5 x6 x7 x8 v36 v37 = kPool (kMasked x2 (kScore (kHidden2 (maximumf v36 v37) x5 x6) x7 x8)) x1 := rfl

/-! ## The stages at an entry -/

theorem kHidden2_apply (a : FVec Ideal S64x200x64 .f32) (x5 : FVec Ideal S64x32 .f32) (x6 : FVec Ideal S32 .f32)
    (r : Fin 64) (t : Fin 200) (j : Fin 32) :
    kHidden2 a x5 x6 (ix2 (flat rows_eq r t) j)
      = hidden2 (fun h => a (ix3 r t h)) (fun h j => x5 (ix2 h j)) (fun j => x6 (ix1 j)) j := by
  unfold kHidden2 hidden2
  rw [maximumf_apply, addf_apply, dotH_apply, broadcastTo_1b_ab_apply, shapeCast_a_1a_apply]
  simp only [shapeCast_abc_nc_apply rows_eq]
  rfl

theorem kScore_apply (b : FVec Ideal S12800x32 .f32) (x7 : FVec Ideal S32x1 .f32) (x8 : FVec Ideal S1 .f32)
    (r : Fin 64) (t : Fin 200) (u : Fin 1) :
    kScore b x7 x8 (ix3 r t u)
      = score (fun j => b (ix2 (flat rows_eq r t) j)) (fun j => x7 (ix2 j (0 : Fin 1))) (x8 (ix1 (0 : Fin 1))) := by
  obtain rfl : u = 0 := Subsingleton.elim _ _
  unfold kScore score
  rw [shapeCast_nc_abc_apply rows_eq, addf_apply, dotO_apply, broadcastTo_11_ab_apply, shapeCast_a_1a_apply]

theorem kMasked_apply (x2 : Vec Ideal S64x200 .i32) (s : FVec Ideal S64x200x1 .f32) (r : Fin 64) (t : Fin 200) (u : Fin 1) :
    kMasked x2 s (ix3 r t u) = Scalar.select (IntOp.cmpi .ne (x2 (ix2 r t)) 0#32) (s (ix3 r t u)) fill := by
  unfold kMasked
  rw [select_apply, shapeCast_ab_ab1_apply]
  rfl

theorem kRowMax_apply (w : FVec Ideal S64x200x1 .f32) (r : Fin 64) (t : Fin 200) (u : Fin 1) :
    kRowMax w (ix3 r t u) = rowMax (fun k => w (ix3 r k (0 : Fin 1))) := by
  unfold kRowMax rowMax
  rw [broadcastTo_a1c_abc_apply, shapeCast_ab_ab1_apply]
  refine (Ideal.multiReduction_maximumf_single w 0xFF800000#32 reduces_S64x200x1_S64x1 (.inl rfl) rfl (ix2 r (0 : Fin 1))).trans ?_
  exact congrArg (Finset.univ.fold max _) (funext fun k => congrArg w (lift_mid reduces_S64x200x1_S64x1 r 0 k))

theorem kExp_apply (w : FVec Ideal S64x200x1 .f32) (r : Fin 64) (t : Fin 200) :
    kExp w (ix3 r t (0 : Fin 1)) = expw (fun k => w (ix3 r k (0 : Fin 1))) t := by
  unfold kExp expw
  show Ideal.exp (w (ix3 r t 0) - kRowMax w (ix3 r t 0)) = _
  rw [kRowMax_apply]

theorem kRowSum_apply (x : FVec Ideal S64x200x1 .f32) (r : Fin 64) (t : Fin 200) (u : Fin 1) :
    kRowSum x (ix3 r t u) = ∑ k : Fin 200, x (ix3 r k (0 : Fin 1)) := by
  unfold kRowSum
  rw [broadcastTo_a1c_abc_apply, shapeCast_ab_ab1_apply]
  refine (Ideal.multiReduction_add_single x 0x00000000#32 reduces_S64x200x1_S64x1 (.inl rfl) rfl (ix2 r (0 : Fin 1))).trans ?_
  exact Finset.sum_congr rfl fun k _ => congrArg x (lift_mid reduces_S64x200x1_S64x1 r 0 k)

theorem kWeight_apply (w : FVec Ideal S64x200x1 .f32) (r : Fin 64) (t : Fin 200) :
    kWeight w (ix3 r t (0 : Fin 1)) = weight (fun k => w (ix3 r k (0 : Fin 1))) t := by
  unfold kWeight weight
  rw [divf_apply, kRowSum_apply, kExp_apply]
  simp only [kExp_apply]

theorem kPool_apply (w : FVec Ideal S64x200x1 .f32) (x1 : FVec Ideal S64x200x128 .f32) (r : Fin 64) (e : Fin 128) :
    kPool w x1 (ix2 r e) = pooled (fun k => w (ix3 r k (0 : Fin 1))) (fun t e => x1 (ix3 r t e)) e := by
  unfold kPool pooled
  rw [divf_apply, broadcast_apply]
  refine congrArg (Ideal.div · count) ((Ideal.multiReduction_add_single _ 0x00000000#32 reduces_S64x200x128_S64x128 (.inl rfl) rfl
    (ix2 r e)).trans (Finset.sum_congr rfl fun (k : Fin 200) _ => ?_))
  rw [lift_mid reduces_S64x200x128_S64x128 r e k, mulf_apply, broadcastTo_ab1_abc_apply, kWeight_apply]

/-! ## The stored value at an entry -/

/-- Entry `(r, e)` of what the body stores is `row` of batch row `r`'s query, keys and ids. -/
theorem payload_apply (x0 : Vec Ideal S64x128 .f32) (x1 : Vec Ideal S64x200x128 .f32) (x2 : Vec Ideal S64x200 .i32)
    (x3 : Vec Ideal S512x64 .f32) (x4 : Vec Ideal S64 .f32) (x5 : Vec Ideal S64x32 .f32) (x6 : Vec Ideal S32 .f32)
    (x7 : Vec Ideal S32x1 .f32) (x8 : Vec Ideal S1 .f32) (r : Fin 64) (e : Fin 128) :
    k0_pay1 x1 x2 x5 x6 x7 x8 (k0_pay2 x0 x1 x3 x4) k0_pay3 (ix2 r e)
      = row (params x3 x4 x5 x6 x7 x8) (fun e => x0 (ix2 r e)) (fun t e => x1 (ix3 r t e)) (fun t => x2 (ix2 r t)) e := by
  rw [pay1_eq, kPool_apply]
  simp only [kMasked_apply, kScore_apply, kHidden2_apply, maximumf_apply, pay2_apply]
  rfl

end Cert.KernelIdeal.Body

end
-- ==== Proof.KernelValue.lean ====
/-
  From blocks to the whole result array.

  Grid point `t` (of 32) holds batch rows `64 t … 64 t + 63`: its blocks of the queries, the keys and the ids
  are those rows, its blocks of the six parameter arrays are the whole arrays, and it writes rows
  `64 t … 64 t + 63` of the result. So what it writes is block `t` of ONE function of the argument arrays:
  at `(b, e)`, `row` of batch row `b`'s query, keys and ids. The 32 blocks cover all 2048 rows (row `b` is
  in block `b / 64`), hence the result array after the run is that function.
-/
import proofs.«154571_j50371376447725_1_alg».proof.Proof.Gen.KernelIdeal.Value
import proofs.«154571_j50371376447725_1_alg».proof.Proof.KernelTail

noncomputable section

namespace Cert.KernelIdeal.Whole

open Cert.KernelIdeal Cert.KernelIdeal.Gen Cert.KernelIdeal.Body Idealize.ShloMosaic Idealize.ShloMosaic.TcCoe Idealize.SL.Sem
open Idealize.ShloMosaic.ValueIdx Cert.AttnPool
open Idealize.ShloMosaic.Pipeline (Dat)

variable (m : (ℓ : Loc nD τ sig) → Buf (Elt Ideal) ℓ) (ρ : Dev nD → PrngReg)

/-! ## Where each window's block lies -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 32 grid points: the queries', keys', ids' and result's blocks
    are at block row `t`, every other block coordinate is zero. -/
theorem idx_facts : ∀ t : Fin cfg0.N, t.val < 32
    ∧ win0_9.index t (0 : Fin 2) = t.val ∧ win0_9.index t (1 : Fin 2) = 0
    ∧ win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Every block row of the result is some grid point's. -/
theorem idx_onto : ∀ q : Fin 32, ∃ t : Fin cfg0.N, win0_9.index t = ![q.val, 0] :=
  (by decide +kernel : ∀ q : Fin 32, ∃ t : Fin grid0.N, win0_9.index t = ![q.val, 0])

/-- Batch row `r` of grid point `t`'s blocks is batch row `64 t + r` of the arrays. -/
theorem row_lt (t : Fin cfg0.N) (r : Fin 64) : t.val * 64 + r.val < 2048 := by
  have := (idx_facts t).1; have := r.isLt; omega

abbrev brow (t : Fin cfg0.N) (r : Fin 64) : Fin 2048 := ⟨t.val * 64 + r.val, row_lt t r⟩

theorem blk0_apply (c : Dev nD) (t : Fin cfg0.N) (r : Fin 64) (e : Fin 128) :
    iblk m c 0 t (ix2 r e) = V m c main_arg0 (ix2 (brow t r) e) := by
  obtain ⟨-, -, -, e0, e1, -⟩ := idx_facts t
  show V m c main_arg0 (((cfg0.win 0).blk t).view.emb (ix2 r e)) = V m c main_arg0 (ix2 (brow t r) e)
  refine congrArg (V m c main_arg0) (funext fun a => Fin.ext ?_)
  match a with
  | ⟨0, _⟩ => show win0_0.index t (0 : Fin 2) * 64 + 1 * r.val = t.val * 64 + r.val; omega
  | ⟨1, _⟩ => show win0_0.index t (1 : Fin 2) * 128 + 1 * e.val = e.val; omega

theorem blk1_apply (c : Dev nD) (t : Fin cfg0.N) (r : Fin 64) (k : Fin 200) (e : Fin 128) :
    iblk m c 1 t (ix3 r k e) = V m c main_arg1 (ix3 (brow t r) k e) := by
  obtain ⟨-, -, -, -, -, e0, e1, e2, -⟩ := idx_facts t
  show V m c main_arg1 (((cfg0.win 1).blk t).view.emb (ix3 r k e)) = V m c main_arg1 (ix3 (brow t r) k e)
  refine congrArg (V m c main_arg1) (funext fun a => Fin.ext ?_)
  match a with
  | ⟨0, _⟩ => show win0_1.index t (0 : Fin 3) * 64 + 1 * r.val = t.val * 64 + r.val; omega
  | ⟨1, _⟩ => show win0_1.index t (1 : Fin 3) * 200 + 1 * k.val = k.val; omega
  | ⟨2, _⟩ => show win0_1.index t (2 : Fin 3) * 128 + 1 * e.val = e.val; omega

theorem blk2_apply (c : Dev nD) (t : Fin cfg0.N) (r : Fin 64) (k : Fin 200) :
    iblk m c 2 t (ix2 r k) = V m c main_arg2 (ix2 (brow t r) k) := by
  obtain ⟨-, -, -, -, -, -, -, -, e0, e1, -⟩ := idx_facts t
  show V m c main_arg2 (((cfg0.win 2).blk t).view.emb (ix2 r k)) = V m c main_arg2 (ix2 (brow t r) k)
  refine congrArg (V m c main_arg2) (funext fun a => Fin.ext ?_)
  match a with
  | ⟨0, _⟩ => show win0_2.index t (0 : Fin 2) * 64 + 1 * r.val = t.val * 64 + r.val; omega
  | ⟨1, _⟩ => show win0_2.index t (1 : Fin 2) * 200 + 1 * k.val = k.val; omega

theorem blk3_apply (c : Dev nD) (t : Fin cfg0.N) (f : Fin 512) (g : Fin 64) :
    iblk m c 3 t (ix2 f g) = V m c main_arg3 (ix2 f g) := by
  obtain ⟨-, -, -, -, -, -, -, -, -, -, e0, e1, -⟩ := idx_facts t
  show V m c main_arg3 (((cfg0.win 3).blk t).view.emb (ix2 f g)) = V m c main_arg3 (ix2 f g)
  refine congrArg (V m c main_arg3) (funext fun a => Fin.ext ?_)
  match a with
  | ⟨0, _⟩ => show win0_3.index t (0 : Fin 2) * 512 + 1 * f.val = f.val; omega
  | ⟨1, _⟩ => show win0_3.index t (1 : Fin 2) * 64 + 1 * g.val = g.val; omega

theorem blk4_apply (c : Dev nD) (t : Fin cfg0.N) (g : Fin 64) :
    iblk m c 4 t (ix1 g) = V m c main_arg4 (ix1 g) := by
  obtain ⟨-, -, -, -, -, -, -, -, -, -, -, -, e0, -⟩ := idx_facts t
  show V m c main_arg4 (((cfg0.win 4).blk t).view.emb (ix1 g)) = V m c main_arg4 (ix1 g)
  refine congrArg (V m c main_arg4) (funext fun a => Fin.ext ?_)
  match a with
  | ⟨0, _⟩ => show win0_4.index t (0 : Fin 1) * 64 + 1 * g.val = g.val; omega

theorem blk5_apply (c : Dev nD) (t : Fin cfg0.N) (h : Fin 64) (j : Fin 32) :
    iblk m c 5 t (ix2 h j) = V m c main_arg5 (ix2 h j) := by
  obtain ⟨-, -, -, -, -, -, -, -, -, -, -, -, -, e0, e1, -⟩ := idx_facts t
  show V m c main_arg5 (((cfg0.win 5).blk t).view.emb (ix2 h j)) = V m c main_arg5 (ix2 h j)
  refine congrArg (V m c main_arg5) (funext fun a => Fin.ext ?_)
  match a with
  | ⟨0, _⟩ => show win0_5.index t (0 : Fin 2) * 64 + 1 * h.val = h.val; omega
  | ⟨1, _⟩ => show win0_5.index t (1 : Fin 2) * 32 + 1 * j.val = j.val; omega

theorem blk6_apply (c : Dev nD) (t : Fin cfg0.N) (j : Fin 32) :
    iblk m c 6 t (ix1 j) = V m c main_arg6 (ix1 j) := by
  obtain ⟨-, -, -, -, -, -, -, -, -, -, -, -, -, -, -, e0, -⟩ := idx_facts t
  show V m c main_arg6 (((cfg0.win 6).blk t).view.emb (ix1 j)) = V m c main_arg6 (ix1 j)
  refine congrArg (V m c main_arg6) (funext fun a => Fin.ext ?_)
  match a with
  | ⟨0, _⟩ => show win0_6.index t (0 : Fin 1) * 32 + 1 * j.val = j.val; omega

theorem blk7_apply (c : Dev nD) (t : Fin cfg0.N) (j : Fin 32) (u : Fin 1) :
    iblk m c 7 t (ix2 j u) = V m c main_arg7 (ix2 j u) := by
  obtain ⟨-, -, -, -, -, -, -, -, -, -, -, -, -, -, -, -, e0, e1, -⟩ := idx_facts t
  show V m c main_arg7 (((cfg0.win 7).blk t).view.emb (ix2 j u)) = V m c main_arg7 (ix2 j u)
  refine congrArg (V m c main_arg7) (funext fun a => Fin.ext ?_)
  match a with
  | ⟨0, _⟩ => show win0_7.index t (0 : Fin 2) * 32 + 1 * j.val = j.val; omega
  | ⟨1, _⟩ => show win0_7.index t (1 : Fin 2) * 1 + 1 * u.val = u.val; omega

theorem blk8_apply (c : Dev nD) (t : Fin cfg0.N) (u : Fin 1) :
    iblk m c 8 t (ix1 u) = V m c main_arg8 (ix1 u) := by
  obtain ⟨-, -, -, -, -, -, -, -, -, -, -, -, -, -, -, -, -, -, e0⟩ := idx_facts t
  show V m c main_arg8 (((cfg0.win 8).blk t).view.emb (ix1 u)) = V m c main_arg8 (ix1 u)
  refine congrArg (V m c main_arg8) (funext fun a => Fin.ext ?_)
  match a with
  | ⟨0, _⟩ => show win0_8.index t (0 : Fin 1) * 1 + 1 * u.val = u.val; omega

/-! ## What a grid point writes back -/

/-- Grid point `t` writes back block `t` of `result` of the argument arrays. -/
theorem flushed_eq (c : Dev nD) (t : Fin cfg0.N) :
    (dats m 0 c).flushed 9 t = ((cfg0.win 9).blk t).view.read (Elt Ideal)
      (result (V m c main_arg0) (V m c main_arg1) (V m c main_arg2) (V m c main_arg3) (V m c main_arg4) (V m c main_arg5)
        (V m c main_arg6) (V m c main_arg7) (V m c main_arg8)) := by
  rw [Cert.KernelIdeal.Value.flushed9]
  unfold out0_9
  rw [View.canon_unit_zero hz2]
  simp only [View.ld_unit_zero (S := S64x128) hz2, View.ld_unit_zero (S := S64x200x128) hz3, View.ld_unit_zero (S := S64x200) hz2,
    View.ld_unit_zero (S := S512x64) hz2, View.ld_unit_zero (S := S64) hz1, View.ld_unit_zero (S := S64x32) hz2,
    View.ld_unit_zero (S := S32) hz1, View.ld_unit_zero (S := S32x1) hz2, View.ld_unit_zero (S := S1) hz1]
  funext y
  obtain ⟨r, e, rfl⟩ : ∃ (r : Fin 64) (e : Fin 128), y = ix2 r e := ⟨y 0, y 1, eq_ix2 y⟩
  obtain ⟨-, f0, f1, -⟩ := idx_facts t
  have hemb : ((cfg0.win 9).blk t).view.emb (ix2 r e) = ix2 (brow t r) e := funext fun a => Fin.ext (by
    match a with
    | ⟨0, _⟩ => show win0_9.index t (0 : Fin 2) * 64 + 1 * r.val = t.val * 64 + r.val; omega
    | ⟨1, _⟩ => show win0_9.index t (1 : Fin 2) * 128 + 1 * e.val = e.val; omega)
  show k0_pay1 (iblk m c 1 t) (iblk m c 2 t) (iblk m c 5 t) (iblk m c 6 t) (iblk m c 7 t) (iblk m c 8 t)
      (k0_pay2 (iblk m c 0 t) (iblk m c 1 t) (iblk m c 3 t) (iblk m c 4 t)) k0_pay3 (ix2 r e)
    = result (V m c main_arg0) (V m c main_arg1) (V m c main_arg2) (V m c main_arg3) (V m c main_arg4) (V m c main_arg5)
        (V m c main_arg6) (V m c main_arg7) (V m c main_arg8) (((cfg0.win 9).blk t).view.emb (ix2 r e))
  rw [hemb]
  refine (payload_apply (iblk m c 0 t) (iblk m c 1 t) (iblk m c 2 t) (iblk m c 3 t) (iblk m c 4 t) (iblk m c 5 t) (iblk m c 6 t)
    (iblk m c 7 t) (iblk m c 8 t) r e).trans ?_
  show _ = row (params (V m c main_arg3) (V m c main_arg4) (V m c main_arg5) (V m c main_arg6) (V m c main_arg7) (V m c main_arg8))
      (fun e => V m c main_arg0 (ix2 (brow t r) e)) (fun k e => V m c main_arg1 (ix3 (brow t r) k e))
      (fun k => V m c main_arg2 (ix2 (brow t r) k)) e
  simp only [params, blk0_apply, blk1_apply, blk2_apply, blk3_apply, blk4_apply, blk5_apply, blk6_apply, blk7_apply, blk8_apply]

/-! ## The cover -/

/-- An index of the result is in point `t`'s block iff each coordinate is in the block's range on its axis. -/
theorem mem_blk (t : Fin cfg0.N) (i : S2048x128.Idx) :
    i ∈ ((cfg0.win 9).blk t).view.set ↔ ∀ a : Fin 2, win0_9.index t a * S64x128.size a ≤ (i a).val
      ∧ (i a).val < win0_9.index t a * S64x128.size a + S64x128.size a := by
  show i ∈ ((View.whole main_v0).slice (win0_9.rect t)).set ↔ _
  rw [View.set_slice_whole, Rect.mem_set_unit]
  exact Iff.rfl

/-- Every index of the result is in the block of the point that holds its batch row. -/
theorem cover (i : S2048x128.Idx) :
    ∃ t : Fin cfg0.N, (cfg0.win 9).flush t = true ∧ i ∈ ((cfg0.win 9).blk t).view.set := by
  have hi0 : (i 0).val < 2048 := (i 0).isLt
  have hi1 : (i 1).val < 128 := (i 1).isLt
  obtain ⟨t, ht⟩ := idx_onto ⟨(i 0).val / 64, by omega⟩
  have q0 : win0_9.index t (0 : Fin 2) = (i 0).val / 64 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 64 ≤ (i 0).val ∧ (i 0).val < win0_9.index t (0 : Fin 2) * 64 + 64; omega
  | ⟨1, _⟩ => show win0_9.index t (1 : Fin 2) * 128 ≤ (i 1).val ∧ (i 1).val < win0_9.index t (1 : Fin 2) * 128 + 128; omega

/-! ## The array after the run, and the run -/

/-- The result array after the run is `result` of the argument arrays. -/
theorem final (c : Dev nD) : (dats m 0 c).arrAt 9 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (dats m 0 c).arrAt_eq_of_cover 9 _ (fun t _ => flushed_eq m c t) cover

/-- Every execution of the kernel's program ends with the result array at `result` of the arguments, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.Whole

end
-- ==== Proof.RefValue.lean ====
/-
  The reference program's result is the specification's `result`.

  The reference works on the whole batch at once: it repeats each query along its row's 200 keys, lays
  `[q, k, q - k, q * k]` side by side into 512 features, and multiplies by the whole 512-row weight matrix.
  At `(b, t, h)` that product is a sum over 512 positions; position `128 g + e` of the features is entry
  `e` of group `g`, so the sum is the four 128-term sums of `preact1` (`sum_four_blocks_fin`). The two
  further layers, the fill where an id is zero, the softmax and the pooling are the specification's, read
  one operation at a time; the only other difference is that the reference takes the maximum of each
  row's running maximum with the value that maximum started from, which changes nothing (`max_fold_max`),
  and that its sums start from a zero it adds.
-/
import proofs.«154571_j50371376447725_1_alg».proof.Proof.Gen.ReferenceIdeal.Read
import proofs.«154571_j50371376447725_1_alg».proof.Proof.LibRank3
import proofs.«154571_j50371376447725_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.AttnPool

variable (x0 : (⟨S2048x128, .f32⟩ : BufTy).Contents (Elt Ideal)) (x1 : (⟨S2048x200x128, .f32⟩ : BufTy).Contents (Elt Ideal))
  (x2 : (⟨S2048x200, .i32⟩ : BufTy).Contents (Elt Ideal)) (x3 : (⟨S512x64, .f32⟩ : BufTy).Contents (Elt Ideal))
  (x4 : (⟨S64, .f32⟩ : BufTy).Contents (Elt Ideal)) (x5 : (⟨S64x32, .f32⟩ : BufTy).Contents (Elt Ideal))
  (x6 : (⟨S32, .f32⟩ : BufTy).Contents (Elt Ideal)) (x7 : (⟨S32x1, .f32⟩ : BufTy).Contents (Elt Ideal))
  (x8 : (⟨S1, .f32⟩ : BufTy).Contents (Elt Ideal))

/-! ## The 512 features -/

/-- The query repeated along the keys. -/
theorem v1_at (b : Fin 2048) (t : Fin 200) (e : Fin 128) : val_main_v1 (F := Ideal) x0 (ix3 b t e) = x0 (ix2 b e) := by
  rw [val_main_v1_apply, val_main_v0_apply]
  exact congrArg x0 (funext fun a => Fin.ext (by match a with | ⟨0, _⟩ => rfl | ⟨1, _⟩ => rfl))

/-- Four arrays laid side by side along the last axis: position `128 g + e` is entry `e` of array `g`. -/
theorem concat4_at (y0 y1 y2 y3 : S2048x200x128.Idx → EReal)
    (hc : Shape.Concatenates [S2048x200x128, S2048x200x128, S2048x200x128, S2048x200x128] S2048x200x512 2)
    (b : Fin 2048) (t : Fin 200) (e : Fin 128) :
    concatenate S2048x200x512 2 [⟨S2048x200x128, y0⟩, ⟨S2048x200x128, y1⟩, ⟨S2048x200x128, y2⟩, ⟨S2048x200x128, y3⟩] hc
        (ix3 b t ⟨0 + e.val, by have := e.isLt; omega⟩) = y0 (ix3 b t e)
    ∧ concatenate S2048x200x512 2 [⟨S2048x200x128, y0⟩, ⟨S2048x200x128, y1⟩, ⟨S2048x200x128, y2⟩, ⟨S2048x200x128, y3⟩] hc
        (ix3 b t ⟨128 + e.val, by have := e.isLt; omega⟩) = y1 (ix3 b t e)
    ∧ concatenate S2048x200x512 2 [⟨S2048x200x128, y0⟩, ⟨S2048x200x128, y1⟩, ⟨S2048x200x128, y2⟩, ⟨S2048x200x128, y3⟩] hc
        (ix3 b t ⟨256 + e.val, by have := e.isLt; omega⟩) = y2 (ix3 b t e)
    ∧ concatenate S2048x200x512 2 [⟨S2048x200x128, y0⟩, ⟨S2048x200x128, y1⟩, ⟨S2048x200x128, y2⟩, ⟨S2048x200x128, y3⟩] hc
        (ix3 b t ⟨384 + e.val, by have := e.isLt; omega⟩) = y3 (ix3 b t e) := by
  have off : ∀ bb : Fin S2048x200x128.rank, bb.cast (rfl : S2048x200x128.rank = S2048x200x512.rank) ≠ (2 : Fin S2048x200x512.rank) →
      ∀ o : ℕ, ∀ ho : o + e.val < 512, ((ix3 b t e : S2048x200x128.Idx) bb).val
        = ((ix3 b t (⟨o + e.val, ho⟩ : Fin 512) : S2048x200x512.Idx) (bb.cast rfl)).val := fun bb hb o ho => by
    match bb with
    | ⟨0, _⟩ => rfl
    | ⟨1, _⟩ => rfl
    | ⟨2, _⟩ => exact absurd rfl hb
  refine ⟨?_, ?_, ?_, ?_⟩
  · exact concatenate_apply_piece (t := S2048x200x512) 2 [⟨S2048x200x128, y0⟩, ⟨S2048x200x128, y1⟩, ⟨S2048x200x128, y2⟩, ⟨S2048x200x128, y3⟩] hc
      (ix3 b t ⟨0 + e.val, by have := e.isLt; omega⟩) 0 (by simp) S2048x200x128 y0 rfl rfl 0 rfl (ix3 b t e)
      (fun bb hb => off bb hb 0 _) rfl
  · exact concatenate_apply_piece (t := S2048x200x512) 2 [⟨S2048x200x128, y0⟩, ⟨S2048x200x128, y1⟩, ⟨S2048x200x128, y2⟩, ⟨S2048x200x128, y3⟩] hc
      (ix3 b t ⟨128 + e.val, by have := e.isLt; omega⟩) 1 (by simp) S2048x200x128 y1 rfl rfl 128 rfl (ix3 b t e)
      (fun bb hb => off bb hb 128 _) rfl
  · exact concatenate_apply_piece (t := S2048x200x512) 2 [⟨S2048x200x128, y0⟩, ⟨S2048x200x128, y1⟩, ⟨S2048x200x128, y2⟩, ⟨S2048x200x128, y3⟩] hc
      (ix3 b t ⟨256 + e.val, by have := e.isLt; omega⟩) 2 (by simp) S2048x200x128 y2 rfl rfl 256 rfl (ix3 b t e)
      (fun bb hb => off bb hb 256 _) rfl
  · exact concatenate_apply_piece (t := S2048x200x512) 2 [⟨S2048x200x128, y0⟩, ⟨S2048x200x128, y1⟩, ⟨S2048x200x128, y2⟩, ⟨S2048x200x128, y3⟩] hc
      (ix3 b t ⟨384 + e.val, by have := e.isLt; omega⟩) 3 (by simp) S2048x200x128 y3 rfl rfl 384 rfl (ix3 b t e)
      (fun bb hb => off bb hb 384 _) rfl

theorem feat0 (b : Fin 2048) (t : Fin 200) (e : Fin 128) (he : 0 + e.val < 512) :
    val_main_v4 (F := Ideal) x0 x1 (ix3 b t ⟨0 + e.val, he⟩) = x0 (ix2 b e) :=
  ((concat4_at _ _ _ _ _ b t e).1).trans (v1_at x0 b t e)

theorem feat1 (b : Fin 2048) (t : Fin 200) (e : Fin 128) (he : 128 + e.val < 512) :
    val_main_v4 (F := Ideal) x0 x1 (ix3 b t ⟨128 + e.val, he⟩) = x1 (ix3 b t e) :=
  (concat4_at _ _ _ _ _ b t e).2.1

theorem feat2 (b : Fin 2048) (t : Fin 200) (e : Fin 128) (he : 256 + e.val < 512) :
    val_main_v4 (F := Ideal) x0 x1 (ix3 b t ⟨256 + e.val, he⟩) = x0 (ix2 b e) - x1 (ix3 b t e) :=
  ((concat4_at _ _ _ _ _ b t e).2.2.1).trans (by rw [val_main_v2_apply, v1_at]; rfl)

theorem feat3 (b : Fin 2048) (t : Fin 200) (e : Fin 128) (he : 384 + e.val < 512) :
    val_main_v4 (F := Ideal) x0 x1 (ix3 b t ⟨384 + e.val, he⟩) = x0 (ix2 b e) * x1 (ix3 b t e) :=
  ((concat4_at _ _ _ _ _ b t e).2.2.2).trans (by rw [val_main_v3_apply, v1_at]; rfl)

/-! ## The three layers -/

theorem v8_at (b : Fin 2048) (t : Fin 200) (h : Fin 64) :
    val_main_v8 (F := Ideal) x0 x1 x3 x4 (ix3 b t h)
      = preact1 (fun e => x0 (ix2 b e)) (fun e => x1 (ix3 b t e)) (fun f g => x3 (ix2 f g)) (fun g => x4 (ix1 g)) h := by
  have hl : ∀ k : Fin 512, lidx_main_v5 (ix3 b t h) k = ix3 b t k := fun k => funext fun a => Fin.ext (by
    match a with | ⟨0, _⟩ => rfl | ⟨1, _⟩ => rfl | ⟨2, _⟩ => rfl)
  have hr : ∀ k : Fin 512, ridx_main_v5 (ix3 b t h) k = ix2 k h := fun k => funext fun a => Fin.ext (by
    match a with | ⟨0, _⟩ => rfl | ⟨1, _⟩ => rfl)
  have hb : idx_main_v6 (idx_main_v7 (ix3 b t h)) = ix1 h := funext fun a => Fin.ext (by match a with | ⟨0, _⟩ => rfl)
  rw [val_main_v8_apply, val_main_v5_apply, val_main_v7_apply, val_main_v6_apply, hb]
  rw [Finset.sum_congr rfl fun k _ => by rw [hl k, hr k]]
  rw [sum_four_blocks_fin]
  simp only [feat0, feat1, feat2, feat3]
  rfl

theorem v9_at (b : Fin 2048) (t : Fin 200) (h : Fin 64) :
    val_main_v9 (F := Ideal) x0 x1 x3 x4 (ix3 b t h)
      = hidden1 (fun e => x0 (ix2 b e)) (fun e => x1 (ix3 b t e)) (fun f g => x3 (ix2 f g)) (fun g => x4 (ix1 g)) h := by
  rw [val_main_v9_apply, v8_at, val_main_call0_v0_apply, val_main_call0_cst_apply]
  rfl

theorem v14_at (b : Fin 2048) (t : Fin 200) (j : Fin 32) :
    val_main_v14 (F := Ideal) x0 x1 x3 x4 x5 x6 (ix3 b t j)
      = hidden2 (hidden1 (fun e => x0 (ix2 b e)) (fun e => x1 (ix3 b t e)) (fun f g => x3 (ix2 f g)) (fun g => x4 (ix1 g)))
          (fun h j => x5 (ix2 h j)) (fun j => x6 (ix1 j)) j := by
  have hl : ∀ k : Fin 64, lidx_main_v10 (ix3 b t j) k = ix3 b t k := fun k => funext fun a => Fin.ext (by
    match a with | ⟨0, _⟩ => rfl | ⟨1, _⟩ => rfl | ⟨2, _⟩ => rfl)
  have hr : ∀ k : Fin 64, ridx_main_v10 (ix3 b t j) k = ix2 k j := fun k => funext fun a => Fin.ext (by
    match a with | ⟨0, _⟩ => rfl | ⟨1, _⟩ => rfl)
  have hb : idx_main_v11 (idx_main_v12 (ix3 b t j)) = ix1 j := funext fun a => Fin.ext (by match a with | ⟨0, _⟩ => rfl)
  rw [val_main_v14_apply, val_main_v13_apply, val_main_v10_apply, val_main_v12_apply, val_main_v11_apply, hb,
    val_main_call1_v0_apply, val_main_call1_cst_apply]
  rw [Finset.sum_congr rfl fun k _ => by rw [hl k, hr k, v9_at]]
  rfl

theorem v18_at (b : Fin 2048) (t : Fin 200) (u : Fin 1) :
    val_main_v18 (F := Ideal) x0 x1 x3 x4 x5 x6 x7 x8 (ix3 b t u)
      = score (hidden2 (hidden1 (fun e => x0 (ix2 b e)) (fun e => x1 (ix3 b t e)) (fun f g => x3 (ix2 f g)) (fun g => x4 (ix1 g)))
          (fun h j => x5 (ix2 h j)) (fun j => x6 (ix1 j))) (fun j => x7 (ix2 j (0 : Fin 1))) (x8 (ix1 (0 : Fin 1))) := by
  obtain rfl : u = 0 := Subsingleton.elim _ _
  have hl : ∀ k : Fin 32, lidx_main_v15 (ix3 b t (0 : Fin 1)) k = ix3 b t k := fun k => funext fun a => Fin.ext (by
    match a with | ⟨0, _⟩ => rfl | ⟨1, _⟩ => rfl | ⟨2, _⟩ => rfl)
  have hr : ∀ k : Fin 32, ridx_main_v15 (ix3 b t (0 : Fin 1)) k = ix2 k (0 : Fin 1) := fun k => funext fun a => Fin.ext (by
    match a with | ⟨0, _⟩ => rfl | ⟨1, _⟩ => rfl)
  have hb : idx_main_v16 (idx_main_v17 (ix3 b t (0 : Fin 1))) = ix1 (0 : Fin 1) :=
    funext fun a => Fin.ext (by match a with | ⟨0, _⟩ => rfl)
  rw [val_main_v18_apply, val_main_v15_apply, val_main_v17_apply, val_main_v16_apply, hb]
  rw [Finset.sum_congr rfl fun k _ => by rw [hl k, hr k, v14_at]]
  rfl

/-! ## The fill, the softmax, the pooling -/

/-- The reference's scores of batch row `b`, after the fill. -/
abbrev scores (b : Fin 2048) : Fin 200 → EReal :=
  masked (params x3 x4 x5 x6 x7 x8) (fun e => x0 (ix2 b e)) (fun t e => x1 (ix3 b t e)) (fun t => x2 (ix2 b t))

theorem v22_at (b : Fin 2048) (t : Fin 200) (u : Fin 1) :
    val_main_v22 (F := Ideal) x0 x1 x2 x3 x4 x5 x6 x7 x8 (ix3 b t u) = scores x0 x1 x2 x3 x4 x5 x6 x7 x8 b t := by
  have hm : idx_main_v21 (ix3 b t u) = ix2 b t := funext fun a => Fin.ext (by match a with | ⟨0, _⟩ => rfl | ⟨1, _⟩ => rfl)
  rw [val_main_v22_apply, val_main_v21_apply, hm, val_main_v20_apply, val_main_v19_apply, val_main_c_apply, v18_at,
    val_main_call2_v0_apply, val_main_cst_apply]
  rfl

theorem v25_at (b : Fin 2048) (u : Fin 1) :
    val_main_v25 (F := Ideal) x0 x1 x2 x3 x4 x5 x6 x7 x8 (ix2 b u) = rowMax (scores x0 x1 x2 x3 x4 x5 x6 x7 x8 b) := by
  obtain rfl : u = 0 := Subsingleton.elim _ _
  have hred : S2048x200x1.Reduces [1] S2048x1 := by decide
  have h23 : val_main_v23 (F := Ideal) x0 x1 x2 x3 x4 x5 x6 x7 x8 (ix2 b (0 : Fin 1))
      = rowMax (scores x0 x1 x2 x3 x4 x5 x6 x7 x8 b) := by
    unfold val_main_v23
    refine (Host.reduce_eq_fold_single (FloatOps.maximumf (F := Ideal) (φ := .f32)) _ _ reducesTo_S2048x200x1_S2048x1_d1 hred h_S_
      (ix2 b (0 : Fin 1))).trans ?_
    exact congrArg (Finset.univ.fold max lowest) (funext fun (k : Fin 200) =>
      (congrArg (val_main_v22 (F := Ideal) x0 x1 x2 x3 x4 x5 x6 x7 x8) (Cert.Rank3.lift_mid hred b 0 k)).trans
        (v22_at x0 x1 x2 x3 x4 x5 x6 x7 x8 b k 0))
  rw [val_main_v25_apply, val_main_v24_apply, val_main_cst_1_apply, h23]
  exact max_fold_max Finset.univ lowest _

theorem v29_at (b : Fin 2048) (t : Fin 200) (u : Fin 1) :
    val_main_v29 (F := Ideal) x0 x1 x2 x3 x4 x5 x6 x7 x8 (ix3 b t u) = expw (scores x0 x1 x2 x3 x4 x5 x6 x7 x8 b) t := by
  have h27 : idx_main_v26 (idx_main_v27 (ix3 b t u)) = ix2 b (0 : Fin 1) :=
    funext fun a => Fin.ext (by match a with | ⟨0, _⟩ => rfl | ⟨1, _⟩ => rfl)
  rw [val_main_v29_apply, val_main_v28_apply, val_main_v27_apply, val_main_v26_apply, h27, v25_at, v22_at]
  rfl

theorem v30_at (b : Fin 2048) (u : Fin 1) :
    val_main_v30 (F := Ideal) x0 x1 x2 x3 x4 x5 x6 x7 x8 (ix2 b u)
      = ∑ k : Fin 200, expw (scores x0 x1 x2 x3 x4 x5 x6 x7 x8 b) k := by
  obtain rfl : u = 0 := Subsingleton.elim _ _
  have hi : ∀ k : Fin 200, idx_main_v30 (ix2 b (0 : Fin 1)) k = ix3 b k (0 : Fin 1) := fun k => funext fun a => Fin.ext (by
    match a with | ⟨0, _⟩ => rfl | ⟨1, _⟩ => rfl | ⟨2, _⟩ => rfl)
  rw [val_main_v30_apply, val_main_cst_2_apply]
  rw [Finset.sum_congr rfl fun k _ => by rw [hi k, v29_at]]
  show Ideal.ofBits .f32 0x00000000#32 + _ = _
  rw [Ideal.ofBits_zero_f32, zero_add]

theorem v33_at (b : Fin 2048) (t : Fin 200) (u : Fin 1) :
    val_main_v33 (F := Ideal) x0 x1 x2 x3 x4 x5 x6 x7 x8 (ix3 b t u) = weight (scores x0 x1 x2 x3 x4 x5 x6 x7 x8 b) t := by
  have h32 : idx_main_v31 (idx_main_v32 (ix3 b t u)) = ix2 b (0 : Fin 1) :=
    funext fun a => Fin.ext (by match a with | ⟨0, _⟩ => rfl | ⟨1, _⟩ => rfl)
  rw [val_main_v33_apply, val_main_v32_apply, val_main_v31_apply, h32, v30_at, v29_at]
  rfl

theorem v38_at (b : Fin 2048) (e : Fin 128) :
    val_main_v38 (F := Ideal) x0 x1 x2 x3 x4 x5 x6 x7 x8 (ix2 b e) = resultAt x0 x1 x2 x3 x4 x5 x6 x7 x8 b e := by
  have hi : ∀ k : Fin 200, idx_main_v36 (ix2 b e) k = ix3 b k e := fun k => funext fun a => Fin.ext (by
    match a with | ⟨0, _⟩ => rfl | ⟨1, _⟩ => rfl | ⟨2, _⟩ => rfl)
  have h34 : ∀ k : Fin 200, idx_main_v34 (ix3 b k e) = ix3 b k (0 : Fin 1) := fun k => funext fun a => Fin.ext (by
    match a with | ⟨0, _⟩ => rfl | ⟨1, _⟩ => rfl | ⟨2, _⟩ => rfl)
  rw [val_main_v38_apply, val_main_v37_apply, val_main_cst_4_apply, val_main_v36_apply, val_main_cst_3_apply]
  rw [Finset.sum_congr rfl fun k _ => by rw [hi k, val_main_v35_apply, val_main_v34_apply, h34 k, v33_at]]
  show Ideal.div (Ideal.ofBits .f32 0x00000000#32 + _) _ = _
  rw [Ideal.ofBits_zero_f32, zero_add]
  rfl

/-- The reference's result array is the specification's. -/
theorem result_eq : val_main_v38 (F := Ideal) x0 x1 x2 x3 x4 x5 x6 x7 x8 = result x0 x1 x2 x3 x4 x5 x6 x7 x8 := by
  funext i
  obtain ⟨b, e, rfl⟩ : ∃ (b : Fin 2048) (e : Fin 128), i = ix2 b e := ⟨i 0, i 1, eq_ix2 i⟩
  exact v38_at x0 x1 x2 x3 x4 x5 x6 x7 x8 b e

end Cert.ReferenceIdeal.RefValue

end
-- ==== Proof.lean ====
/-
  The kernel and its reference compute one function of their arguments on the extended reals.

  Both score every (batch row, key) pair with the same three-layer network on the features
  `[q, k, q - k, q * k]`, replace the score of a key whose id is zero by the same large negative number,
  take the softmax of each batch row's 200 scores and return the softmax-weighted sum of the row's keys
  divided by 200. They differ in how the first layer's 512-term sum is arranged — the kernel multiplies
  each of the four 128-wide feature groups by its own 128 rows of the weight matrix and adds the four
  products, the reference lays the groups side by side and multiplies once — which is a regrouping of
  a finite sum and holds on the extended reals without any finiteness; in the tiling (the kernel works on
  64 batch rows at a time with the keys flattened to 12800 rows); and in the reference's taking the
  maximum of each row's maximum with its starting value once more. `Cert.AttnPool.result` is the common
  function; Proof/KernelValue.lean shows the kernel's result array ends at it, Proof/RefValue.lean that
  the reference's term is it. The idealized kernel is the printed kernel read at the exact values with no
  rewrite, so that conjunct is trivial; the three frames are the generated ones.
-/
import proofs.«154571_j50371376447725_1_alg».proof.Defs
import proofs.«154571_j50371376447725_1_alg».proof.Proof.Gen.Kernel
import proofs.«154571_j50371376447725_1_alg».proof.Proof.Gen.Kernel.Skeleton
import proofs.«154571_j50371376447725_1_alg».proof.Proof.Gen.Kernel.Launch
import proofs.«154571_j50371376447725_1_alg».proof.Proof.Gen.Kernel.Points
import proofs.«154571_j50371376447725_1_alg».proof.Proof.Gen.Kernel.Frame
import proofs.«154571_j50371376447725_1_alg».proof.Proof.Gen.KernelIdeal
import proofs.«154571_j50371376447725_1_alg».proof.Proof.Gen.KernelIdeal.Skeleton
import proofs.«154571_j50371376447725_1_alg».proof.Proof.Gen.KernelIdeal.Launch
import proofs.«154571_j50371376447725_1_alg».proof.Proof.Gen.KernelIdeal.Points
import proofs.«154571_j50371376447725_1_alg».proof.Proof.Gen.KernelIdeal.Frame
import proofs.«154571_j50371376447725_1_alg».proof.Proof.Gen.ReferenceIdeal
import proofs.«154571_j50371376447725_1_alg».proof.Proof.Gen.KernelIdeal.Value
import proofs.«154571_j50371376447725_1_alg».proof.Proof.Gen.ReferenceIdeal.Run
import proofs.«154571_j50371376447725_1_alg».proof.Proof.Gen.ReferenceIdeal.Read
import proofs.«154571_j50371376447725_1_alg».proof.Proof.Gen.Pre_finite_inputs
import proofs.«154571_j50371376447725_1_alg».proof.Proof.KernelValue
import proofs.«154571_j50371376447725_1_alg».proof.Proof.RefValue
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array and the reference's both end at
    `Cert.AttnPool.result` of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v38_eq, Cert.ReferenceIdeal.RefValue.result_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
